-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1280 : Shape := ⟨3, ![32, 2048, 1280]⟩
abbrev S1280x160 : Shape := ⟨2, ![1280, 160]⟩
abbrev S160 : Shape := ⟨1, ![160]⟩
abbrev S160x1280 : Shape := ⟨2, ![160, 1280]⟩
abbrev S1280 : Shape := ⟨1, ![1280]⟩
abbrev S_ : Shape := ⟨0, ![]⟩

class Facts : Prop where
  bcast_S_S32x2048x1280 : S_.BroadcastsInDim S32x2048x1280 (![] : Fin 0 → Fin S32x2048x1280.rank)
  reducesTo_S32x2048x1280_S_d0_1_2 : S32x2048x1280.ReducesTo [0, 1, 2] S_
  h_S_ : 0 < S_.numel
  bcast_S_S1280x160 : S_.BroadcastsInDim S1280x160 (![] : Fin 0 → Fin S1280x160.rank)
  reducesTo_S1280x160_S_d0_1 : S1280x160.ReducesTo [0, 1] S_
  bcast_S_S160 : S_.BroadcastsInDim S160 (![] : Fin 0 → Fin S160.rank)
  reducesTo_S160_S_d0 : S160.ReducesTo [0] S_
  bcast_S_S160x1280 : S_.BroadcastsInDim S160x1280 (![] : Fin 0 → Fin S160x1280.rank)
  reducesTo_S160x1280_S_d0_1 : S160x1280.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280 .f32) (main_v13 : IVec S_ 1) (main_v16 : IVec S160x1280 1) : IVec S_ 1 :=
  let main_c_5 : IVec S_ 1 := constantI S_ 1 1#1
  let main_v17 : IVec S_ 1 := (fun x v => Host.reduce IntOp.andi x v reducesTo_S160x1280_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  main_v23

def fn {F : FTy → Type} [FloatOps F] (main_arg0 : FVec F S32x2048x1280 .f32) (main_arg1 : FVec F S1280x160 .f32) (main_arg2 : FVec F S160 .f32) (main_arg3 : FVec F S160x1280 .f32) (main_arg4 : FVec F S1280 .f32) : IVec S_ 1 :=
  let main_v0 : FVec F S32x2048x1280 .f32 := Host.absf main_arg0
  let main_cst : FVec F S_ .f32 := constant S_ .f32 0x7F800000#32
  let main_v1 : FVec F S32x2048x1280 .f32 := broadcastInDim S32x2048x1280 ![] bcast_S_S32x2048x1280 main_cst
  let main_v2 : IVec S32x2048x1280 1 := cmpf .olt main_v0 main_v1
  let main_c : IVec S_ 1 := constantI S_ 1 1#1
  let main_v3 : IVec S_ 1 := (fun x v => Host.reduce IntOp.andi x v reducesTo_S32x2048x1280_S_d0_1_2 h_S_) main_v2 main_c
  let main_v4 : FVec F S1280x160 .f32 := Host.absf main_arg1
  let main_cst_0 : FVec F S_ .f32 := constant S_ .f32 0x7F800000#32
  let main_v5 : FVec F S1280x160 .f32 := broadcastInDim S1280x160 ![] bcast_S_S1280x160 main_cst_0
  let main_v6 : IVec S1280x160 1 := cmpf .olt main_v4 main_v5
  let main_c_1 : IVec S_ 1 := constantI S_ 1 1#1
  let main_v7 : IVec S_ 1 := (fun x v => Host.reduce IntOp.andi x v reducesTo_S1280x160_S_d0_1 h_S_) main_v6 main_c_1
  let main_v8 : IVec S_ 1 := andi main_v3 main_v7
  let main_v9 : FVec F S160 .f32 := Host.absf main_arg2
  let main_cst_2 : FVec F S_ .f32 := constant S_ .f32 0x7F800000#32
  let main_v10 : FVec F S160 .f32 := broadcastInDim S160 ![] bcast_S_S160 main_cst_2
  let main_v11 : IVec S160 1 := cmpf .olt main_v9 main_v10
  let main_c_3 : IVec S_ 1 := constantI S_ 1 1#1
  let main_v12 : IVec S_ 1 := (fun x v => Host.reduce IntOp.andi x v reducesTo_S160_S_d0 h_S_) main_v11 main_c_3
  let main_v13 : IVec S_ 1 := andi main_v8 main_v12
  let main_v14 : FVec F S160x1280 .f32 := Host.absf main_arg3
  let main_cst_4 : FVec F S_ .f32 := constant S_ .f32 0x7F800000#32
  let main_v15 : FVec F S160x1280 .f32 := broadcastInDim S160x1280 ![] bcast_S_S160x1280 main_cst_4
  let main_v16 : IVec S160x1280 1 := cmpf .olt main_v14 main_v15
  fn_part1 (F := F) main_arg4 main_v13 main_v16
-- ==== Kernel.lean ====
abbrev S32x2048x1280 : Shape := ⟨3, ![32, 2048, 1280]⟩
abbrev S1280x160 : Shape := ⟨2, ![1280, 160]⟩
abbrev S160 : Shape := ⟨1, ![160]⟩
abbrev S160x1280 : Shape := ⟨2, ![160, 1280]⟩
abbrev S1280 : Shape := ⟨1, ![1280]⟩
abbrev S32x1280 : Shape := ⟨2, ![32, 1280]⟩
abbrev S32x256x128 : Shape := ⟨3, ![32, 256, 128]⟩
abbrev S32x128 : Shape := ⟨2, ![32, 128]⟩
abbrev S_ : Shape := ⟨0, ![]⟩
abbrev S32x160 : Shape := ⟨2, ![32, 160]⟩
abbrev S1x160 : Shape := ⟨2, ![1, 160]⟩
abbrev S1x1280 : Shape := ⟨2, ![1, 1280]⟩
abbrev S32x1x128 : Shape := ⟨3, ![32, 1, 128]⟩

abbrev nBuf : Space → Nat
  | .hbm => 42
  | .vmem => 12
  | .smem => 0
  | _ => 0

abbrev bufTy : (tb : Table) → Fin (tcTables nBuf tb) → BufTy
  | .hbm, ⟨0, _⟩ => ⟨S32x2048x1280, .f32⟩
  | .hbm, ⟨1, _⟩ => ⟨S1280x160, .f32⟩
  | .hbm, ⟨2, _⟩ => ⟨S160, .f32⟩
  | .hbm, ⟨3, _⟩ => ⟨S160x1280, .f32⟩
  | .hbm, ⟨4, _⟩ => ⟨S1280, .f32⟩
  | .hbm, ⟨5, _⟩ => ⟨S32x1280, .f32⟩
  | .hbm, ⟨6, _⟩ => ⟨S32x1280, .f32⟩
  | .hbm, ⟨7, _⟩ => ⟨S_, .f32⟩
  | .hbm, ⟨8, _⟩ => ⟨S32x1280, .f32⟩
  | .hbm, ⟨9, _⟩ => ⟨S32x1280, .f32⟩
  | .hbm, ⟨10, _⟩ => ⟨S32x160, .f32⟩
  | .hbm, ⟨11, _⟩ => ⟨S1x160, .f32⟩
  | .hbm, ⟨12, _⟩ => ⟨S32x160, .f32⟩
  | .hbm, ⟨13, _⟩ => ⟨S32x160, .f32⟩
  | .hbm, ⟨14, _⟩ => ⟨S_, .f32⟩
  | .hbm, ⟨15, _⟩ => ⟨S32x160, .f32⟩
  | .hbm, ⟨16, _⟩ => ⟨S32x160, .f32⟩
  | .hbm, ⟨17, _⟩ => ⟨S32x1280, .f32⟩
  | .hbm, ⟨18, _⟩ => ⟨S1x1280, .f32⟩
  | .hbm, ⟨19, _⟩ => ⟨S32x1280, .f32⟩
  | .hbm, ⟨20, _⟩ => ⟨S32x1280, .f32⟩
  | .hbm, ⟨21, _⟩ => ⟨S32x160, .f32⟩
  | .hbm, ⟨22, _⟩ => ⟨S1x160, .f32⟩
  | .hbm, ⟨23, _⟩ => ⟨S32x160, .f32⟩
  | .hbm, ⟨24, _⟩ => ⟨S32x160, .f32⟩
  | .hbm, ⟨25, _⟩ => ⟨S_, .f32⟩
  | .hbm, ⟨26, _⟩ => ⟨S32x160, .f32⟩
  | .hbm, ⟨27, _⟩ => ⟨S32x160, .f32⟩
  | .hbm, ⟨28, _⟩ => ⟨S32x1280, .f32⟩
  | .hbm, ⟨29, _⟩ => ⟨S1x1280, .f32⟩
  | .hbm, ⟨30, _⟩ => ⟨S32x1280, .f32⟩
  | .hbm, ⟨31, _⟩ => ⟨S32x1280, .f32⟩
  | .hbm, ⟨32, _⟩ => ⟨S32x1280, .f32⟩
  | .hbm, ⟨33, _⟩ => ⟨S32x1280, .f32⟩
  | .hbm, ⟨34, _⟩ => ⟨S32x1280, .f32⟩
  | .hbm, ⟨35, _⟩ => ⟨S_, .f32⟩
  | .hbm, ⟨36, _⟩ => ⟨S32x1280, .f32⟩
  | .hbm, ⟨37, _⟩ => ⟨S32x1280, .f32⟩
  | .hbm, ⟨38, _⟩ => ⟨S_, .f32⟩
  | .hbm, ⟨39, _⟩ => ⟨S32x1280, .f32⟩
  | .hbm, ⟨40, _⟩ => ⟨S32x1280, .f32⟩
  | .hbm, ⟨41, _⟩ => ⟨S32x2048x1280, .f32⟩
  | .local _ .vmem, ⟨0, _⟩ => ⟨S32x256x128, .f32⟩
  | .local _ .vmem, ⟨1, _⟩ => ⟨S32x256x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x256x128, .f32⟩
  | .local _ .vmem, ⟨7, _⟩ => ⟨S32x256x128, .f32⟩
  | .local _ .vmem, ⟨8, _⟩ => ⟨S32x128, .f32⟩
  | .local _ .vmem, ⟨9, _⟩ => ⟨S32x128, .f32⟩
  | .local _ .vmem, ⟨10, _⟩ => ⟨S32x256x128, .f32⟩
  | .local _ .vmem, ⟨11, _⟩ => ⟨S32x256x128, .f32⟩
  | _, _ => ⟨S32x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_cst : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![10, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S32x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x128_S32x128_0_0 : ∀ a, (![0, 0] : Fin 2 → Nat) a + S32x128.size a ≤ S32x128.size a
  h_S32x128 : 0 < S32x128.numel
  inb_S32x256x128_S32x256x128_0_0_0 : ∀ a, (![0, 0, 0] : Fin 3 → Nat) a + S32x256x128.size a ≤ S32x256x128.size a
  h_S32x256x128 : 0 < S32x256x128.numel
  shapeCasts_S32x128_S32x128 : S32x128.ShapeCasts S32x128
  reduces_S32x256x128_S32x128 : S32x256x128.Reduces [1] S32x128
  bcast_S_S32x1280 : S_.BroadcastsInDim S32x1280 (![] : Fin 0 → Fin S32x1280.rank)
  bcast_S160_S1x160_1 : S160.BroadcastsInDim S1x160 (![1] : Fin 1 → Fin S1x160.rank)
  bcast_S1x160_S32x160_0_1 : S1x160.BroadcastsInDim S32x160 (![0, 1] : Fin 2 → Fin S32x160.rank)
  bcast_S_S32x160 : S_.BroadcastsInDim S32x160 (![] : Fin 0 → Fin S32x160.rank)
  bcast_S1280_S1x1280_1 : S1280.BroadcastsInDim S1x1280 (![1] : Fin 1 → Fin S1x1280.rank)
  bcast_S1x1280_S32x1280_0_1 : S1x1280.BroadcastsInDim S32x1280 (![0, 1] : Fin 2 → Fin S32x1280.rank)
  shapeCasts_S32x128_S32x1x128 : S32x128.ShapeCasts S32x1x128
  broadcasts_S32x1x128_S32x256x128 : S32x1x128.Broadcasts S32x256x128
  dot_S32x1280_S1280x160_S32x160_1_0_0_1_n_n_wf : DotDims.WF S32x1280 S1280x160 S32x160 [1] [0] [0] [1] [] []
  dot_S32x160_S160x1280_S32x1280_1_0_0_1_n_n_wf : DotDims.WF S32x160 S160x1280 S32x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S32x2048x1280.size a
  hwx0_0 : ∀ i : grid0.Coords, EltTy.bits .f32 = 32 ∨ (Rect.block (s := S32x2048x1280) S32x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x1280.size a
  hwx0_1 : ∀ i : grid0.Coords, EltTy.bits .f32 = 32 ∨ (Rect.block (s := S32x1280) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x1280.size a
  hwx0_2 : ∀ i : grid0.Coords, EltTy.bits .f32 = 32 ∨ (Rect.block (s := S32x1280) S32x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256x128.size a ≤ S32x2048x1280.size a
  hwx1_0 : ∀ i : grid1.Coords, EltTy.bits .f32 = 32 ∨ (Rect.block (s := S32x2048x1280) S32x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x1280.size a
  hwx1_1 : ∀ i : grid1.Coords, EltTy.bits .f32 = 32 ∨ (Rect.block (s := S32x1280) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256x128.size a ≤ S32x2048x1280.size a
  hwx1_2 : ∀ i : grid1.Coords, EltTy.bits .f32 = 32 ∨ (Rect.block (s := S32x2048x1280) S32x256x128.size (cc1_transform_2 i) (hinb1_2 i)).WholeWords (EltTy.packing .f32)

variable [Facts₀]

def dot_S32x1280_S1280x160_S32x160_1_0_0_1_n_n : DotDims S32x1280 S1280x160 S32x160 where
  lhsContracting := [1]
  rhsContracting := [0]
  lhsNonContracting := [0]
  rhsNonContracting := [1]
  lhsBatch := []
  rhsBatch := []
  wf := dot_S32x1280_S1280x160_S32x160_1_0_0_1_n_n_wf
def dot_S32x160_S160x1280_S32x1280_1_0_0_1_n_n : DotDims S32x160 S160x1280 S32x1280 where
  lhsContracting := [1]
  rhsContracting := [0]
  lhsNonContracting := [0]
  rhsNonContracting := [1]
  lhsBatch := []
  rhsBatch := []
  wf := dot_S32x160_S160x1280_S32x1280_1_0_0_1_n_n_wf

abbrev win0_0 : Pipeline.Window sig grid0 :=
  Pipeline.Window.ofSpec (Memref.whole main_arg0) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S32x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S32x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S32x256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x1280 : Shape := ⟨3, ![32, 2048, 1280]⟩
abbrev S1280x160 : Shape := ⟨2, ![1280, 160]⟩
abbrev S160 : Shape := ⟨1, ![160]⟩
abbrev S160x1280 : Shape := ⟨2, ![160, 1280]⟩
abbrev S1280 : Shape := ⟨1, ![1280]⟩
abbrev S_ : Shape := ⟨0, ![]⟩
abbrev S32x1280 : Shape := ⟨2, ![32, 1280]⟩
abbrev S32x160 : Shape := ⟨2, ![32, 160]⟩
abbrev S1x160 : Shape := ⟨2, ![1, 160]⟩
abbrev S1x1280 : Shape := ⟨2, ![1, 1280]⟩
abbrev S32x1x1280 : Shape := ⟨3, ![32, 1, 1280]⟩

abbrev nBuf : Space → Nat
  | .hbm => 46
  | .vmem => 0
  | .smem => 0
  | _ => 0

abbrev bufTy : (tb : Table) → Fin (tcTables nBuf tb) → BufTy
  | .hbm, ⟨0, _⟩ => ⟨S32x2048x1280, .f32⟩
  | .hbm, ⟨1, _⟩ => ⟨S1280x160, .f32⟩
  | .hbm, ⟨2, _⟩ => ⟨S160, .f32⟩
  | .hbm, ⟨3, _⟩ => ⟨S160x1280, .f32⟩
  | .hbm, ⟨4, _⟩ => ⟨S1280, .f32⟩
  | .hbm, ⟨5, _⟩ => ⟨S_, .f32⟩
  | .hbm, ⟨6, _⟩ => ⟨S32x1280, .f32⟩
  | .hbm, ⟨7, _⟩ => ⟨S_, .f32⟩
  | .hbm, ⟨8, _⟩ => ⟨S32x1280, .f32⟩
  | .hbm, ⟨9, _⟩ => ⟨S32x1280, .f32⟩
  | .hbm, ⟨10, _⟩ => ⟨S_, .f32⟩
  | .hbm, ⟨11, _⟩ => ⟨S32x1280, .f32⟩
  | .hbm, ⟨12, _⟩ => ⟨S32x160, .f32⟩
  | .hbm, ⟨13, _⟩ => ⟨S1x160, .f32⟩
  | .hbm, ⟨14, _⟩ => ⟨S32x160, .f32⟩
  | .hbm, ⟨15, _⟩ => ⟨S32x160, .f32⟩
  | .hbm, ⟨16, _⟩ => ⟨S_, .f32⟩
  | .hbm, ⟨17, _⟩ => ⟨S32x160, .f32⟩
  | .hbm, ⟨18, _⟩ => ⟨S32x160, .f32⟩
  | .hbm, ⟨19, _⟩ => ⟨S32x1280, .f32⟩
  | .hbm, ⟨20, _⟩ => ⟨S1x1280, .f32⟩
  | .hbm, ⟨21, _⟩ => ⟨S32x1280, .f32⟩
  | .hbm, ⟨22, _⟩ => ⟨S32x1280, .f32⟩
  | .hbm, ⟨23, _⟩ => ⟨S32x160, .f32⟩
  | .hbm, ⟨24, _⟩ => ⟨S1x160, .f32⟩
  | .hbm, ⟨25, _⟩ => ⟨S32x160, .f32⟩
  | .hbm, ⟨26, _⟩ => ⟨S32x160, .f32⟩
  | .hbm, ⟨27, _⟩ => ⟨S_, .f32⟩
  | .hbm, ⟨28, _⟩ => ⟨S32x160, .f32⟩
  | .hbm, ⟨29, _⟩ => ⟨S32x160, .f32⟩
  | .hbm, ⟨30, _⟩ => ⟨S32x1280, .f32⟩
  | .hbm, ⟨31, _⟩ => ⟨S1x1280, .f32⟩
  | .hbm, ⟨32, _⟩ => ⟨S32x1280, .f32⟩
  | .hbm, ⟨33, _⟩ => ⟨S32x1280, .f32⟩
  | .hbm, ⟨34, _⟩ => ⟨S32x1280, .f32⟩
  | .hbm, ⟨35, _⟩ => ⟨S32x1280, .f32⟩
  | .hbm, ⟨36, _⟩ => ⟨S32x1280, .f32⟩
  | .hbm, ⟨37, _⟩ => ⟨S_, .f32⟩
  | .hbm, ⟨38, _⟩ => ⟨S32x1280, .f32⟩
  | .hbm, ⟨39, _⟩ => ⟨S32x1280, .f32⟩
  | .hbm, ⟨40, _⟩ => ⟨S_, .f32⟩
  | .hbm, ⟨41, _⟩ => ⟨S32x1280, .f32⟩
  | .hbm, ⟨42, _⟩ => ⟨S32x1280, .f32⟩
  | .hbm, ⟨43, _⟩ => ⟨S32x1x1280, .f32⟩
  | .hbm, ⟨44, _⟩ => ⟨S32x2048x1280, .f32⟩
  | .hbm, ⟨45, _⟩ => ⟨S32x2048x1280, .f32⟩
  | _, _ => ⟨S32x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S32x2048x1280_S32x1280_d1 : S32x2048x1280.ReducesTo [1] S32x1280
  h_S_ : 0 < S_.numel
  bcast_S_S32x1280 : S_.BroadcastsInDim S32x1280 (![] : Fin 0 → Fin S32x1280.rank)
  bcast_S160_S1x160_1 : S160.BroadcastsInDim S1x160 (![1] : Fin 1 → Fin S1x160.rank)
  bcast_S1x160_S32x160_0_1 : S1x160.BroadcastsInDim S32x160 (![0, 1] : Fin 2 → Fin S32x160.rank)
  bcast_S_S32x160 : S_.BroadcastsInDim S32x160 (![] : Fin 0 → Fin S32x160.rank)
  bcast_S1280_S1x1280_1 : S1280.BroadcastsInDim S1x1280 (![1] : Fin 1 → Fin S1x1280.rank)
  bcast_S1x1280_S32x1280_0_1 : S1x1280.BroadcastsInDim S32x1280 (![0, 1] : Fin 2 → Fin S32x1280.rank)
  bcast_S32x1280_S32x1x1280_0_2 : S32x1280.BroadcastsInDim S32x1x1280 (![0, 2] : Fin 2 → Fin S32x1x1280.rank)
  bcast_S32x1x1280_S32x2048x1280_0_1_2 : S32x1x1280.BroadcastsInDim S32x2048x1280 (![0, 1, 2] : Fin 3 → Fin S32x2048x1280.rank)
  dot_S32x1280_S1280x160_S32x160_1_0_0_1_n_n_wf : DotDims.WF S32x1280 S1280x160 S32x160 [1] [0] [0] [1] [] []
  dot_S32x160_S160x1280_S32x1280_1_0_0_1_n_n_wf : DotDims.WF S32x160 S160x1280 S32x1280 [1] [0] [0] [1] [] []

variable [Facts₀]

def dot_S32x1280_S1280x160_S32x160_1_0_0_1_n_n : DotDims S32x1280 S1280x160 S32x160 where
  lhsContracting := [1]
  rhsContracting := [0]
  lhsNonContracting := [0]
  rhsNonContracting := [1]
  lhsBatch := []
  rhsBatch := []
  wf := dot_S32x1280_S1280x160_S32x160_1_0_0_1_n_n_wf
def dot_S32x160_S160x1280_S32x1280_1_0_0_1_n_n : DotDims S32x160 S160x1280 S32x1280 where
  lhsContracting := [1]
  rhsContracting := [0]
  lhsNonContracting := [0]
  rhsNonContracting := [1]
  lhsBatch := []
  rhsBatch := []
  wf := dot_S32x160_S160x1280_S32x1280_1_0_0_1_n_n_wf

class Facts : Prop extends Facts₀ where

variable [Facts]
-- ==== Proof.MainRun.lean ====
/-
  The run of the idealized kernel's @main with its RESULT read: the program is two pallas_calls with a stretch of
  host operations between them (the pooled sums and maxima, then the gate, then the scaling), and every weakly fair
  execution ends with the result array `main_v28` holding what the LAST segment boundary's contents say it holds,
  the five argument arrays as launched. What those contents are, index by index, is the business of the other
  modules; here the segments are only launched and the final memory read against the last boundary.
-/
import proofs.«179766_j36696200577250_2_alg».proof.Proof.Gen.KernelIdeal.Frame

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the
    last boundary gives it (`V7`: the second call's arrays after its write-backs) and the arguments unchanged. -/
theorem run_main : θ_run defs (onTc (τ := τ) (main (F := F))) ⟨m, fun _ => 0, ρ⟩ (fun r => ∀ c : Dev nD,
      r.2.mem ((c.tc : Thread nD τ).loc main_v28) = V7 m ρ c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v28 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Pool

end
-- ==== Proof.Pieces.lean ====
/-
  What one run of each kernel body leaves in its output blocks, as VALUES of what it read.
  The pooling body keeps two running blocks, a sum and a maximum, over a [32, 256, 128] block `x` of the input:
  at the first sequence block of a channel tile it stores the zero block and the `-∞` block, reads them back, and
  leaves `0 + Σₖ x` and `max(-∞, maxₖ x)`; at every later one it leaves `acc + Σₖ x` and `max(acc, maxₖ x)` of
  the blocks `acc` the point before left. The scaling body leaves `x · a` with the [32, 128] gate block `a` repeated
  along the 256 rows. Each is the body's one covering store (over the reset's store, at a first block), whose
  payload reads whole buffers.
-/
import proofs.«179766_j36696200577250_2_alg».proof.Proof.Gen.KernelIdeal.Frame
import Idealize.ShloMosaic.Lib.Pipeline.Value
import Idealize.ShloMosaic.Lib.Tactic

noncomputable section

namespace Cert.KernelIdeal.Pool

open Cert.KernelIdeal Cert.KernelIdeal.Gen
open Idealize.ShloMosaic Idealize.ShloMosaic.TcCoe Idealize.SL.Sem Idealize.ShloMosaic.Tactic

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- A later sequence block, the running sum: `acc + Σₖ x` over the block the point before left. -/
theorem later_sum (c : Dev nD) (i : grid0.Coords) (a2 : Memref sig .tc .vmem S32x256x128 .f32) (h2 : a2.IsWhole)
    (a3 : Memref sig .tc .vmem S32x128 .f32) (h3 : a3.IsWhole) (a4 : Memref sig .tc .vmem S32x128 .f32) (h4 : a4.IsWhole)
    (hc : ¬cond0_0 i) (x : Vec F S32x256x128 .f32) (xo1 xo2 : Vec F S32x128 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero origin2]
  simp only [View.readAt_eq_ld, h2.read_unread, h3.read_unread, View.ld_unit_zero (S := S32x256x128) origin3,
    View.ld_unit_zero (S := S32x128) origin2]

/-- A later sequence block, the running maximum: `max(acc, maxₖ x)`. -/
theorem later_max (c : Dev nD) (i : grid0.Coords) (a2 : Memref sig .tc .vmem S32x256x128 .f32) (h2 : a2.IsWhole)
    (a3 : Memref sig .tc .vmem S32x128 .f32) (h3 : a3.IsWhole) (a4 : Memref sig .tc .vmem S32x128 .f32) (h4 : a4.IsWhole)
    (hc : ¬cond0_0 i) (x : Vec F S32x256x128 .f32) (xo1 xo2 : Vec F S32x128 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero origin2]
  simp only [View.readAt_eq_ld, h2.read_unread, h4.read_unread, View.ld_unit_zero (S := S32x256x128) origin3,
    View.ld_unit_zero (S := S32x128) origin2]

/-- A first sequence block, the sum: the zero block is stored, read back, and `0 + Σₖ x` left. -/
theorem first_sum (c : Dev nD) (i : grid0.Coords) (a2 : Memref sig .tc .vmem S32x256x128 .f32) (h2 : a2.IsWhole)
    (a3 : Memref sig .tc .vmem S32x128 .f32) (h3 : a3.IsWhole) (a4 : Memref sig .tc .vmem S32x128 .f32) (h4 : a4.IsWhole)
    (hc : cond0_0 i) (x : Vec F S32x256x128 .f32) :
    out0_A_1 c i a2 h2 a3 h3 a4 h4 hc x = k0_pay3 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S32x128) origin2, View.readCov_unit_zero (S := S32x128) _ origin2]
  simp only [View.readAt_eq_ld, h2.read_unread, View.ld_unit_zero (S := S32x256x128) origin3,
    View.ld_unit_zero (S := S32x128) origin2]

/-- A first sequence block, the maximum: the `-∞` block is stored, read back, and `max(-∞, maxₖ x)` left. -/
theorem first_max (c : Dev nD) (i : grid0.Coords) (a2 : Memref sig .tc .vmem S32x256x128 .f32) (h2 : a2.IsWhole)
    (a3 : Memref sig .tc .vmem S32x128 .f32) (h3 : a3.IsWhole) (a4 : Memref sig .tc .vmem S32x128 .f32) (h4 : a4.IsWhole)
    (hc : cond0_0 i) (x : Vec F S32x256x128 .f32) :
    out0_A_2 c i a2 h2 a3 h3 a4 h4 hc x = k0_pay4 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S32x128) origin2, View.readCov_unit_zero (S := S32x128) _ origin2]
  simp only [View.readAt_eq_ld, h2.read_unread, View.ld_unit_zero (S := S32x256x128) origin3,
    View.ld_unit_zero (S := S32x128) origin2]

/-- The scaling body: its one store covers the output block with `x · a`. -/
theorem scaled_block (x : Vec F S32x256x128 .f32) (a : Vec F S32x128 .f32) : out1_2 x a = k1_pay1 x a := by
  unfold out1_2
  rw [View.canon_unit_zero origin3]
  simp only [View.ld_unit_zero (S := S32x256x128) origin3, View.ld_unit_zero (S := S32x128) origin2]

end Cert.KernelIdeal.Pool

end
-- ==== Proof.LibOuterLayout.lean ====
/-
  The casts and broadcasts by which two matrices and a table of weights are combined into one rank-3
  array, read at coordinates.

  A kernel that forms  out[i, j, k] = d[i, j] * (p[i, k] + q[j, k])  from matrices p, q : [a, c] / [b, c]
  and d : [a, b] gives each a unit axis and broadcasts it along that axis:
      p : [a, c] -> [a, 1, c] -> [a, b, c]   read at (i, j, k) is p (i, k)
      q : [b, c] -> [1, b, c] -> [a, b, c]   read at (i, j, k) is q (j, k)
      d : [a, b] -> [a, b, 1] -> [a, b, c]   read at (i, j, k) is d (i, j)
  Each lemma reads one such operation at an index written by coordinates; also the cast that drops two
  leading unit axes of a [1, 1, a, b] slab.  Generic in the extents and in the element type.
-/
import Idealize.ShloMosaic.Lib.Pipeline.Value
import Idealize.ShloMosaic.Lib.ValueIdx

noncomputable section

namespace OuterLayout

open Idealize.ShloMosaic Idealize.ShloMosaic.ValueIdx

variable {α : Type}

/-- A [1, 1, a, b] slab cast to [a, b] reads, at (i, j), the slab at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] matrix cast to [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end OuterLayout

end
-- ==== Proof.Steps.lean ====
/-
  The two kernel bodies' arithmetic read at an index, on the extended reals.
  Pooling, at row `b` and lane `q` of the [32, 128] running blocks, over a [32, 256, 128] input block `x`:
    the sum step is      acc (b, q) + Σₖ x (b, k, q)        (the lane sum of the 256 rows of the block),
    the maximum step is  max (acc (b, q)) (⨆ₖ x (b, k, q)),
  the reset blocks are `0` and `-∞` everywhere. Scaling, at (b, k, q): x (b, k, q) · a (b, q) — the gate block is given
  a unit middle axis and repeated along the 256 rows.
-/
import proofs.«179766_j36696200577250_2_alg».proof.Proof.Gen.KernelIdeal.Skeleton
import proofs.«179766_j36696200577250_2_alg».proof.Proof.LibOuterLayout
import Idealize.ShloMosaic.Lib.ValueIdx
import Idealize.ShloMosaic.Lib.Pipeline.Value
import Idealize.ShloMosaic.PureOps.Ideal.Laws

noncomputable section

namespace Cert.KernelIdeal.Pool

open Cert.KernelIdeal Cert.KernelIdeal.Gen
open Idealize.ShloMosaic Idealize.ShloMosaic.ValueIdx

/-- The reset's sum block is zero everywhere. -/
theorem zero_block (j : S32x128.Idx) : k0_pay1 (F := Ideal) j = 0 := by
  show Ideal.ofBits .f32 0x00000000#32 = 0
  exact Ideal.ofBits_zero_f32

/-- The reset's maximum block is `-∞` everywhere. -/
theorem bot_block (j : S32x128.Idx) : k0_pay2 (F := Ideal) j = ⊥ := by
  show Ideal.ofBits .f32 0xFF800000#32 = (⊥ : EReal)
  simp [Ideal.ofBits, Ideal.ieee]

/-- Inserting the row `k` into (b, q) along the reduced axis gives (b, k, q). -/
theorem lift_rows (b : Fin 32) (q : Fin 128) (k : Fin 256) :
    (reduces_S32x256x128_S32x128 : S32x256x128.Reduces [1] S32x128).lift (ix2 b q) k = ix3 b k q :=
  funext fun a => Fin.ext (by
    match a with
    | ⟨0, _⟩ => rfl
    | ⟨1, _⟩ => rfl
    | ⟨2, _⟩ => rfl)

/-- The sum step at (b, q). -/
theorem sum_step (x : FVec Ideal S32x256x128 .f32) (acc : FVec Ideal S32x128 .f32) (b : Fin 32) (q : Fin 128) :
    k0_pay3 (F := Ideal) x acc (ix2 b q) = acc (ix2 b q) + ∑ k : Fin 256, x (ix3 b k q) := by
  unfold k0_pay3
  show shapeCast S32x128 acc shapeCasts_S32x128_S32x128 (ix2 b q)
      + multiReduction (F := Ideal) .add [1] S32x128 x 0x00000000#32 reduces_S32x256x128_S32x128 (.inl rfl) rfl (ix2 b q) = _
  rw [shapeCast_self]
  refine congrArg (acc (ix2 b q) + ·) ?_
  refine (Ideal.multiReduction_add_single x 0x00000000#32 reduces_S32x256x128_S32x128 (.inl rfl) rfl (ix2 b q)).trans ?_
  exact Finset.sum_congr rfl fun k _ => congrArg x (lift_rows b q k)

/-- A fold of `max` from the `-∞` word is the supremum. -/
theorem fold_from_bot (f : Fin 256 → EReal) :
    (Finset.univ : Finset (Fin 256)).fold max (FloatOps.ofBits (F := Ideal) .f32 0xFF800000#32) f
      = (Finset.univ : Finset (Fin 256)).sup f :=
  congrArg (fun z => (Finset.univ : Finset (Fin 256)).fold max z f) (bot_block (ix2 0 0))

/-- The maximum step at (b, q). -/
theorem max_step (x : FVec Ideal S32x256x128 .f32) (acc : FVec Ideal S32x128 .f32) (b : Fin 32) (q : Fin 128) :
    k0_pay4 (F := Ideal) x acc (ix2 b q)
      = max (acc (ix2 b q)) ((Finset.univ : Finset (Fin 256)).sup fun k => x (ix3 b k q)) := by
  unfold k0_pay4
  refine (maximumf_apply _ _ (ix2 b q)).trans ?_
  rw [shapeCast_self]
  refine congrArg (max (acc (ix2 b q)) ·) ?_
  refine (Ideal.multiReduction_maximumf_single x 0xFF800000#32 reduces_S32x256x128_S32x128 (.inl rfl) rfl (ix2 b q)).trans ?_
  refine (fold_from_bot _).trans ?_
  exact congrArg (Finset.univ : Finset (Fin 256)).sup (funext fun k => congrArg x (lift_rows b q k))

/-- The scaling body's product at (b, k, q). -/
theorem scale_at (x : FVec Ideal S32x256x128 .f32) (a : FVec Ideal S32x128 .f32) (b : Fin 32) (k : Fin 256) (q : Fin 128) :
    k1_pay1 (F := Ideal) x a (ix3 b k q) = x (ix3 b k q) * a (ix2 b q) := by
  unfold k1_pay1
  show x (ix3 b k q) * broadcastTo S32x256x128 (shapeCast S32x1x128 (shapeCast S32x128 a shapeCasts_S32x128_S32x128)
      shapeCasts_S32x128_S32x1x128) broadcasts_S32x1x128_S32x256x128 (ix3 b k q) = _
  rw [shapeCast_self]
  refine congrArg (x (ix3 b k q) * ·) ?_
  refine (OuterLayout.broadcastTo_a1c_abc_apply _ broadcasts_S32x1x128_S32x256x128 b k q).trans ?_
  exact OuterLayout.shapeCast_ab_a1b_apply a shapeCasts_S32x128_S32x1x128 b 0 q

end Cert.KernelIdeal.Pool

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.LibBlockSup.lean ====
/-
  A finite supremum over `m · n` consecutive positions, split into `m` blocks of `n`: for any function `f` of the
  natural numbers with values in a join-semilattice with a least element,
  `⨆_{i < m·n} f i = ⨆_{t < m} ⨆_{r < n} f (n·t + r)` (`sup_fin_blocks`, the left side and the inner right side
  indexed by `Fin`), and a running supremum taken one block at a time (`sup_range_succ`): a grid of `m` row blocks
  of `n` rows that keeps a running maximum, one block per step, ends at the maximum over all `m·n` rows. The twin,
  for `⊔`, of the block decomposition of a finite sum.
-/
import Idealize.ShloMosaic.Lib.ValueIdx

namespace BlockSup

/-- One more block: the supremum over the first `l + 1` is that over the first `l` joined with the `l`-th. -/
theorem sup_range_succ {α : Type*} [SemilatticeSup α] [OrderBot α] (g : ℕ → α) (l : ℕ) :
    (Finset.range (l + 1)).sup g = (Finset.range l).sup g ⊔ g l := by
  rw [Finset.range_add_one, Finset.sup_insert, sup_comm]

/-- `⨆_{i : Fin (m·n)} f i = ⨆_{t < m} ⨆_{r : Fin n} f (n·t + r)`: position `i` lies in block `i / n` at row `i % n`,
    and every `n·t + r` with `t < m`, `r < n` is a position below `m·n`. -/
theorem sup_fin_blocks {α : Type*} [SemilatticeSup α] [OrderBot α] (f : ℕ → α) (m n : ℕ) :
    (Finset.univ : Finset (Fin (m * n))).sup (fun i => f i.val)
      = (Finset.range m).sup fun t => (Finset.univ : Finset (Fin n)).sup fun r => f (n * t + r.val) := by
  apply le_antisymm
  · refine Finset.sup_le fun i _ => ?_
    have hn : 0 < n := by
      rcases Nat.eq_zero_or_pos n with h | h
      · exact absurd i.isLt (by simp [h])
      · exact h
    have ht : i.val / n < m := Nat.div_lt_of_lt_mul (lt_of_lt_of_eq i.isLt (Nat.mul_comm m n))
    have e : f i.val = f (n * (i.val / n) + (⟨i.val % n, Nat.mod_lt _ hn⟩ : Fin n).val) := by
      show f i.val = f (n * (i.val / n) + i.val % n)
      rw [Nat.div_add_mod]
    rw [e]
    exact (Finset.le_sup (f := fun r : Fin n => f (n * (i.val / n) + r.val)) (Finset.mem_univ _)).trans
      (Finset.le_sup (f := fun t => (Finset.univ : Finset (Fin n)).sup fun r => f (n * t + r.val)) (Finset.mem_range.2 ht))
  · refine Finset.sup_le fun t ht => Finset.sup_le fun r _ => ?_
    have h : n * t + r.val < m * n := by
      have ht' : t + 1 ≤ m := Finset.mem_range.1 ht
      calc n * t + r.val < n * t + n := Nat.add_lt_add_left r.isLt _
        _ = n * (t + 1) := by ring
        _ ≤ n * m := Nat.mul_le_mul_left _ ht'
        _ = m * n := Nat.mul_comm _ _
    exact Finset.le_sup (f := fun i : Fin (m * n) => f i.val) (Finset.mem_univ ⟨n * t + r.val, h⟩)

end BlockSup
-- ==== Proof.BlockLaws.lean ====
/-
  The law that joins the two programs. A column of 2048 extended reals `g 0, …, g 2047` is pooled by the reference in
  one reduction — its sum, and its maximum — and by the kernel block by block: eight consecutive blocks of 256, the
  sum (the maximum) of a block added to (joined with) a running value that starts at `0` (at `-∞`). On the extended
  reals addition is commutative and associative and `max` is the lattice join, at the infinities too, so nothing has
  to be finite: after all eight blocks the running sum is `Σᵢ g i` and the running maximum is `⨆ᵢ g i`.
-/
import Idealize.ShloMosaic.PureOps.Ideal.Laws
import proofs.«179766_j36696200577250_2_alg».proof.Proof.LibBlockSum
import proofs.«179766_j36696200577250_2_alg».proof.Proof.LibBlockSup

noncomputable section

namespace Cert.Pool

/-- The sum of the first `l` blocks of 256 entries of the column `g`. -/
def sumTo (g : ℕ → EReal) (l : ℕ) : EReal := ∑ j ∈ Finset.range l, ∑ k : Fin 256, g (256 * j + k.val)

/-- The maximum of the first `l` blocks of 256 entries of the column `g`. -/
def maxTo (g : ℕ → EReal) (l : ℕ) : EReal :=
  (Finset.range l).sup fun j => (Finset.univ : Finset (Fin 256)).sup fun k => g (256 * j + k.val)

theorem sumTo_zero (g : ℕ → EReal) : sumTo g 0 = 0 := Finset.sum_range_zero _

/-- One more block: its sum is added to the running sum. -/
theorem sumTo_succ (g : ℕ → EReal) (l : ℕ) : sumTo g (l + 1) = sumTo g l + ∑ k : Fin 256, g (256 * l + k.val) :=
  Finset.sum_range_succ _ _

/-- Eight blocks of 256 are the whole column. -/
theorem sumTo_all (g : ℕ → EReal) : sumTo g 8 = ∑ i : Fin 2048, g i.val :=
  (AnchorGcn.sum_fin_blocks g 8 256).symm

theorem maxTo_zero (g : ℕ → EReal) : maxTo g 0 = ⊥ := by
  unfold maxTo; rw [Finset.range_zero, Finset.sup_empty]

/-- One more block: its maximum is joined with the running maximum. -/
theorem maxTo_succ (g : ℕ → EReal) (l : ℕ) :
    maxTo g (l + 1) = max (maxTo g l) ((Finset.univ : Finset (Fin 256)).sup fun k => g (256 * l + k.val)) :=
  BlockSup.sup_range_succ _ l

/-- Eight blocks of 256 are the whole column. -/
theorem maxTo_all (g : ℕ → EReal) : maxTo g 8 = (Finset.univ : Finset (Fin 2048)).sup fun i => g i.val :=
  (BlockSup.sup_fin_blocks g 8 256).symm

end Cert.Pool

end
-- ==== Proof.Pooled.lean ====
/-
  The two pooled tables of an input `x : [32, 2048, 1280]` on the extended reals, index by index:
      pooledSum x (b, c) = Σ_{l < 2048} x (b, l, c),        pooledMax x (b, c) = ⨆_{l < 2048} x (b, l, c),
  and the column `l ↦ x (b, l, c)` as a function of a natural number (its value outside the array is never used),
  over which the block-by-block running sum and running maximum are stated: after eight blocks of 256 they are
  the pooled entries.
-/
import Idealize.ShloMosaic.Lib.ValueIdx
import proofs.«179766_j36696200577250_2_alg».proof.Proof.BlockLaws

noncomputable section

namespace Cert.Pool

open Idealize.ShloMosaic Idealize.ShloMosaic.ValueIdx

/-- The column of `x` at batch `b` and channel `c`, by sequence position. -/
def column (X : (⟨3, ![32, 2048, 1280]⟩ : Shape).Idx → EReal) (b : Fin 32) (c : ℕ) (l : ℕ) : EReal :=
  if h : l < 2048 ∧ c < 1280 then X (ix3 b ⟨l, h.1⟩ ⟨c, h.2⟩) else 0

/-- The sum over the sequence axis. -/
def pooledSum (X : (⟨3, ![32, 2048, 1280]⟩ : Shape).Idx → EReal) : (⟨2, ![32, 1280]⟩ : Shape).Idx → EReal :=
  fun j => ∑ i : Fin 2048, X (ix3 (⟨(j 0).val, (j 0).isLt⟩ : Fin 32) i (⟨(j 1).val, (j 1).isLt⟩ : Fin 1280))

/-- The maximum over the sequence axis. -/
def pooledMax (X : (⟨3, ![32, 2048, 1280]⟩ : Shape).Idx → EReal) : (⟨2, ![32, 1280]⟩ : Shape).Idx → EReal :=
  fun j => (Finset.univ : Finset (Fin 2048)).sup fun i =>
    X (ix3 (⟨(j 0).val, (j 0).isLt⟩ : Fin 32) i (⟨(j 1).val, (j 1).isLt⟩ : Fin 1280))

theorem column_at (X : (⟨3, ![32, 2048, 1280]⟩ : Shape).Idx → EReal) (b : Fin 32) (c : Fin 1280) (i : Fin 2048) :
    column X b c.val i.val = X (ix3 b i c) := dif_pos ⟨i.isLt, c.isLt⟩

/-- Eight blocks of the running sum are the pooled sum. -/
theorem sumTo_column (X : (⟨3, ![32, 2048, 1280]⟩ : Shape).Idx → EReal) (b : Fin 32) (c : Fin 1280) :
    sumTo (column X b c.val) 8 = pooledSum X (ix2 b c) := by
  rw [sumTo_all]
  exact Finset.sum_congr rfl fun i _ => column_at X b c i

/-- Eight blocks of the running maximum are the pooled maximum. -/
theorem maxTo_column (X : (⟨3, ![32, 2048, 1280]⟩ : Shape).Idx → EReal) (b : Fin 32) (c : Fin 1280) :
    maxTo (column X b c.val) 8 = pooledMax X (ix2 b c) := by
  rw [maxTo_all]
  exact congrArg (Finset.univ : Finset (Fin 2048)).sup (funext fun i => column_at X b c i)

end Cert.Pool

end
-- ==== Proof.Running.lean ====
/-
  What the pooling call's two running blocks hold after each grid point.
  The grid is 10 channel tiles by 8 sequence blocks, walked sequence block fastest: point `n` is tile `n / 8`, block
  `n % 8`, and its input block is rows `256·(n % 8) …` and channels `128·(n / 8) …` of `x`. By induction on the point:
  at row `b` and lane `q` the sum block holds the sum of the first `n % 8 + 1` blocks of the column
  `l ↦ x (b, l, 128·(n / 8) + q)`, and the maximum block their maximum — a first block starts the two from `0` and `-∞`,
  a later one continues from what the point before left (same tile, one block earlier).
-/
import proofs.«179766_j36696200577250_2_alg».proof.Proof.Gen.KernelIdeal.Frame
import proofs.«179766_j36696200577250_2_alg».proof.Proof.Pieces
import proofs.«179766_j36696200577250_2_alg».proof.Proof.Steps
import proofs.«179766_j36696200577250_2_alg».proof.Proof.Pooled

set_option maxRecDepth 16384

noncomputable section

namespace Cert.KernelIdeal.Pool

open Cert.KernelIdeal Cert.KernelIdeal.Gen Cert.Pool
open Idealize.ShloMosaic Idealize.ShloMosaic.TcCoe Idealize.ShloMosaic.ValueIdx Idealize.SL.Sem

variable (V : (c : Dev nD) → (b : Ref sig .tc) → Buf (Elt Ideal) ((c : Thread nD τ).loc b))

/-- The input window's block index at point `t`: all batches, sequence block `t % 8`, channel tile `t / 8`. -/
theorem in_index : ∀ t : Fin cfg0.N, win0_0.index t (0 : Fin 3) = 0 ∧ win0_0.index t (1 : Fin 3) = t.val % 8
    ∧ win0_0.index t (2 : Fin 3) = t.val / 8 :=
  (by decide +kernel : ∀ t : Fin grid0.N, win0_0.index t (0 : Fin 3) = 0 ∧ win0_0.index t (1 : Fin 3) = t.val % 8
    ∧ win0_0.index t (2 : Fin 3) = t.val / 8)

/-- The input block at point `t`, read at (b, k, q): `x` at row `256·(t % 8) + k` and channel `128·(t / 8) + q`. -/
theorem in_block (c : Dev nD) (t : Fin cfg0.N) (b : Fin 32) (k : Fin 256) (q : Fin 128) :
    (iblk0 V c 0 t : FVec Ideal S32x256x128 .f32) (ix3 b k q)
      = column (V c main_arg0) b (128 * (t.val / 8) + q.val) (256 * (t.val % 8) + k.val) := by
  have hN : t.val < 80 := lt_of_lt_of_eq t.isLt (show cfg0.N = 80 from N_0)
  obtain ⟨e0, e1, e2⟩ := in_index t
  have hl : 256 * (t.val % 8) + k.val < 2048 := by have := k.isLt; omega
  have hc : 128 * (t.val / 8) + q.val < 1280 := by have := q.isLt; omega
  unfold column
  rw [dif_pos ⟨hl, hc⟩]
  unfold iblk0
  rw [View.read_apply]
  show V c main_arg0 _ = V c main_arg0 _
  refine congrArg (V c main_arg0) (funext fun a => Fin.ext ?_)
  match a with
  | ⟨0, _⟩ => show win0_0.index t (0 : Fin 3) * 32 + 1 * b.val = b.val; omega
  | ⟨1, _⟩ => show win0_0.index t (1 : Fin 3) * 256 + 1 * k.val = 256 * (t.val % 8) + k.val; omega
  | ⟨2, _⟩ => show win0_0.index t (2 : Fin 3) * 128 + 1 * q.val = 128 * (t.val / 8) + q.val; omega

/-- One sum step continues the running sum of a column by its next block. -/
theorem sum_running (x : FVec Ideal S32x256x128 .f32) (acc : FVec Ideal S32x128 .f32) (g : ℕ → EReal) (l : ℕ)
    (b : Fin 32) (q : Fin 128) (hx : ∀ k : Fin 256, x (ix3 b k q) = g (256 * l + k.val))
    (hacc : acc (ix2 b q) = sumTo g l) : k0_pay3 (F := Ideal) x acc (ix2 b q) = sumTo g (l + 1) := by
  rw [sum_step, hacc, sumTo_succ]
  exact congrArg (sumTo g l + ·) (Finset.sum_congr rfl fun k _ => hx k)

/-- One maximum step continues the running maximum of a column by its next block. -/
theorem max_running (x : FVec Ideal S32x256x128 .f32) (acc : FVec Ideal S32x128 .f32) (g : ℕ → EReal) (l : ℕ)
    (b : Fin 32) (q : Fin 128) (hx : ∀ k : Fin 256, x (ix3 b k q) = g (256 * l + k.val))
    (hacc : acc (ix2 b q) = maxTo g l) : k0_pay4 (F := Ideal) x acc (ix2 b q) = maxTo g (l + 1) := by
  rw [max_step, hacc, maxTo_succ]
  exact congrArg (max (maxTo g l) ·) (congrArg (Finset.univ : Finset (Fin 256)).sup (funext fun k => hx k))

/-- After point `n` the two running blocks hold, at (b, q), the sum and the maximum of the first `n % 8 + 1` blocks
    of the column of channel `128·(n / 8) + q`. -/
theorem running (c : Dev nD) (n : ℕ) : ∀ (h : n < cfg0.N) (b : Fin 32) (q : Fin 128),
    (outsAt0 V c n h).1 (ix2 b q) = sumTo (column (V c main_arg0) b (128 * (n / 8) + q.val)) (n % 8 + 1)
    ∧ (outsAt0 V c n h).2 (ix2 b q) = maxTo (column (V c main_arg0) b (128 * (n / 8) + q.val)) (n % 8 + 1) := by
  induction n using Nat.strong_induction_on with
  | _ n ih =>
    intro h b q
    have hx : ∀ k : Fin 256, (iblk0 V c 0 ⟨n, h⟩ : FVec Ideal S32x256x128 .f32) (ix3 b k q)
        = column (V c main_arg0) b (128 * (n / 8) + q.val) (256 * (n % 8) + k.val) := fun k => in_block V c ⟨n, h⟩ b k q
    by_cases h0 : n % 8 = 0
    · have e : outsAt0 V c n h = _ := outsAt0_A V c ⟨n, h⟩ h0
      have z1 : (k0_pay1 (F := Ideal)) (ix2 b q) = sumTo (column (V c main_arg0) b (128 * (n / 8) + q.val)) (n % 8) := by
        rw [h0]; exact (zero_block _).trans (sumTo_zero _).symm
      have z2 : (k0_pay2 (F := Ideal)) (ix2 b q) = maxTo (column (V c main_arg0) b (128 * (n / 8) + q.val)) (n % 8) := by
        rw [h0]; exact (bot_block _).trans (maxTo_zero _).symm
      refine ⟨?_, ?_⟩
      · refine (congrFun (congrArg Prod.fst e) (ix2 b q)).trans ?_
        refine (congrFun (first_sum c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) ((hcond0_0 ⟨n, h⟩).mpr h0) (iblk0 V c 0 ⟨n, h⟩)) (ix2 b q)).trans ?_
        exact sum_running (iblk0 V c 0 ⟨n, h⟩) k0_pay1 _ (n % 8) b q hx z1
      · refine (congrFun (congrArg Prod.snd e) (ix2 b q)).trans ?_
        refine (congrFun (first_max c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) ((hcond0_0 ⟨n, h⟩).mpr h0) (iblk0 V c 0 ⟨n, h⟩)) (ix2 b q)).trans ?_
        exact max_running (iblk0 V c 0 ⟨n, h⟩) k0_pay2 _ (n % 8) b q hx z2
    · have hp : n - 1 < cfg0.N := Nat.lt_of_le_of_lt (Nat.sub_le _ _) h
      have p := ih (n - 1) (by omega) hp b q
      have e1 : (n - 1) / 8 = n / 8 := by omega
      have e2 : (n - 1) % 8 + 1 = n % 8 := by omega
      rw [e1, e2] at p
      rw [show outsAt0 V c n h = _ from outsAt0_B V c ⟨n, h⟩ h0]
      dsimp only
      rw [later_sum, later_max]
      exact ⟨sum_running _ _ _ (n % 8) b q hx p.1, max_running _ _ _ (n % 8) b q hx p.2⟩

end Cert.KernelIdeal.Pool

end
-- ==== Proof.PooledArrays.lean ====
/-
  The two result arrays of the pooling call. A channel tile's running blocks are written back once, after its
  eighth sequence block (the points `n` with `n % 8 = 7`), into columns `128·(n / 8) …` of the [32, 1280] arrays; by
  then the running sum and maximum have seen all eight blocks of 256, so the block written is a block of the pooled
  sum (maximum) of the whole input. The ten tiles' blocks cover the arrays: column `c` lies in tile `c / 128`.
-/
import proofs.«179766_j36696200577250_2_alg».proof.Proof.Running

set_option maxRecDepth 16384

noncomputable section

namespace Cert.KernelIdeal.Pool

open Cert.KernelIdeal Cert.KernelIdeal.Gen Cert.Pool
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output windows' block index at point `t`: all batches, channel tile `t / 8`. -/
theorem out_index : ∀ t : Fin cfg0.N, win0_1.index t (0 : Fin 2) = 0 ∧ win0_1.index t (1 : Fin 2) = t.val / 8
    ∧ win0_2.index t (0 : Fin 2) = 0 ∧ win0_2.index t (1 : Fin 2) = t.val / 8 :=
  (by decide +kernel : ∀ t : Fin grid0.N, win0_1.index t (0 : Fin 2) = 0 ∧ win0_1.index t (1 : Fin 2) = t.val / 8
    ∧ win0_2.index t (0 : Fin 2) = 0 ∧ win0_2.index t (1 : Fin 2) = t.val / 8)

/-- After a tile's last sequence block the running sum at lane (y₀, y₁) is the pooled sum at channel `128·(t / 8) + y₁`. -/
theorem sum_entry (c : Dev nD) (t : Fin cfg0.N) (h7 : t.val % 8 = 7) (y : S32x128.Idx)
    (hc : 128 * (t.val / 8) + (y 1).val < 1280) :
    (outsAt0 V c t.val t.isLt).1 y
      = pooledSum (V c main_arg0) (ix2 (⟨(y 0).val, (y 0).isLt⟩ : Fin 32) (⟨128 * (t.val / 8) + (y 1).val, hc⟩ : Fin 1280)) := by
  obtain ⟨b, q, rfl⟩ : ∃ (b : Fin 32) (q : Fin 128), y = ix2 b q := ⟨y 0, y 1, eq_ix2 y⟩
  refine ((running V c t.val t.isLt b q).1).trans ?_
  rw [h7]
  exact sumTo_column (V c main_arg0) b ⟨128 * (t.val / 8) + q.val, hc⟩

/-- After a tile's last sequence block the running maximum at lane (y₀, y₁) is the pooled maximum at that channel. -/
theorem max_entry (c : Dev nD) (t : Fin cfg0.N) (h7 : t.val % 8 = 7) (y : S32x128.Idx)
    (hc : 128 * (t.val / 8) + (y 1).val < 1280) :
    (outsAt0 V c t.val t.isLt).2 y
      = pooledMax (V c main_arg0) (ix2 (⟨(y 0).val, (y 0).isLt⟩ : Fin 32) (⟨128 * (t.val / 8) + (y 1).val, hc⟩ : Fin 1280)) := by
  obtain ⟨b, q, rfl⟩ : ∃ (b : Fin 32) (q : Fin 128), y = ix2 b q := ⟨y 0, y 1, eq_ix2 y⟩
  refine ((running V c t.val t.isLt b q).2).trans ?_
  rw [h7]
  exact maxTo_column (V c main_arg0) b ⟨128 * (t.val / 8) + q.val, hc⟩

/-- What a flushing point writes back into the sum array is its block of the pooled sum. -/
theorem sum_flushed (c : Dev nD) (t : Fin cfg0.N) (hf : (cfg0.win 1).flush t = true) :
    (dat0 V c).flushed 1 t = ((cfg0.win 1).blk t).view.read (Elt Ideal) (pooledSum (V c main_arg0)) := by
  have h7 : t.val % 8 = 7 := (flush0_1 t).mp hf
  have hN : t.val < 80 := lt_of_lt_of_eq t.isLt (show cfg0.N = 80 from N_0)
  obtain ⟨e0, e1, -, -⟩ := out_index t
  show (cfg0.win 1).cut (grid0.coords t) ((dat0 V c).after 1 t) = _
  rw [after0_1]
  funext y
  have hy0 : (y 0).val < 32 := (y 0).isLt
  have hy1 : (y 1).val < 128 := (y 1).isLt
  show (outsAt0 V c t.val t.isLt).1 y = pooledSum (V c main_arg0) (((cfg0.win 1).blk t).view.emb y)
  refine (sum_entry V c t h7 y (by omega)).trans ?_
  refine congrArg (pooledSum (V c main_arg0)) (funext fun a => Fin.ext ?_)
  match a with
  | ⟨0, _⟩ => show (y 0).val = win0_1.index t (0 : Fin 2) * 32 + 1 * (y 0).val; omega
  | ⟨1, _⟩ => show 128 * (t.val / 8) + (y 1).val = win0_1.index t (1 : Fin 2) * 128 + 1 * (y 1).val; omega

/-- What a flushing point writes back into the maximum array is its block of the pooled maximum. -/
theorem max_flushed (c : Dev nD) (t : Fin cfg0.N) (hf : (cfg0.win 2).flush t = true) :
    (dat0 V c).flushed 2 t = ((cfg0.win 2).blk t).view.read (Elt Ideal) (pooledMax (V c main_arg0)) := by
  have h7 : t.val % 8 = 7 := (flush0_2 t).mp hf
  have hN : t.val < 80 := lt_of_lt_of_eq t.isLt (show cfg0.N = 80 from N_0)
  obtain ⟨-, -, e0, e1⟩ := out_index t
  show (cfg0.win 2).cut (grid0.coords t) ((dat0 V c).after 2 t) = _
  rw [after0_2]
  funext y
  have hy0 : (y 0).val < 32 := (y 0).isLt
  have hy1 : (y 1).val < 128 := (y 1).isLt
  show (outsAt0 V c t.val t.isLt).2 y = pooledMax (V c main_arg0) (((cfg0.win 2).blk t).view.emb y)
  refine (max_entry V c t h7 y (by omega)).trans ?_
  refine congrArg (pooledMax (V c main_arg0)) (funext fun a => Fin.ext ?_)
  match a with
  | ⟨0, _⟩ => show (y 0).val = win0_2.index t (0 : Fin 2) * 32 + 1 * (y 0).val; omega
  | ⟨1, _⟩ => show 128 * (t.val / 8) + (y 1).val = win0_2.index t (1 : Fin 2) * 128 + 1 * (y 1).val; omega

/-- An index of the sum array is in point `t`'s block iff each coordinate is in the block's range on its axis. -/
theorem mem_sum_blk (t : Fin cfg0.N) (i : S32x1280.Idx) :
    i ∈ ((cfg0.win 1).blk t).view.set ↔ ∀ a : Fin 2, win0_1.index t a * S32x128.size a ≤ (i a).val
      ∧ (i a).val < win0_1.index t a * S32x128.size a + S32x128.size a := by
  show i ∈ ((View.whole main_v0_0).slice (win0_1.rect t)).set ↔ _
  rw [View.set_slice_whole, Rect.mem_set_unit]
  exact Iff.rfl

/-- The same for the maximum array. -/
theorem mem_max_blk (t : Fin cfg0.N) (i : S32x1280.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v0_1).slice (win0_2.rect t)).set ↔ _
  rw [View.set_slice_whole, Rect.mem_set_unit]
  exact Iff.rfl

/-- The point that closes the tile of channel `ch`: tile `ch / 128`, its eighth sequence block. -/
def closing (ch : ℕ) (h : ch < 1280) : Fin cfg0.N :=
  ⟨8 * (ch / 128) + 7, by rw [show cfg0.N = 80 from N_0]; omega⟩

theorem closing_val (ch : ℕ) (h : ch < 1280) : (closing ch h).val = 8 * (ch / 128) + 7 := rfl

/-- THE SUM ARRAY after the call is the pooled sum of the input as the call found it. -/
theorem sum_array (c : Dev nD) : (dat0 V c).arrAt 1 cfg0.N = pooledSum (V c main_arg0) :=
  (dat0 V c).arrAt_eq_of_cover 1 (pooledSum (V c main_arg0)) (sum_flushed V c) fun i => by
    have hi0 : (i 0).val < 32 := (i 0).isLt
    have hi1 : (i 1).val < 1280 := (i 1).isLt
    have hv := closing_val (i 1).val hi1
    obtain ⟨e0, e1, -, -⟩ := out_index (closing (i 1).val hi1)
    refine ⟨closing (i 1).val hi1, (flush0_1 _).mpr (by rw [hv]; omega), ?_⟩
    rw [mem_sum_blk]
    intro a
    match a with
    | ⟨0, _⟩ => show win0_1.index (closing (i 1).val hi1) (0 : Fin 2) * 32 ≤ (i 0).val ∧ (i 0).val < win0_1.index (closing (i 1).val hi1) (0 : Fin 2) * 32 + 32; omega
    | ⟨1, _⟩ => show win0_1.index (closing (i 1).val hi1) (1 : Fin 2) * 128 ≤ (i 1).val ∧ (i 1).val < win0_1.index (closing (i 1).val hi1) (1 : Fin 2) * 128 + 128; omega

/-- THE MAXIMUM ARRAY after the call is the pooled maximum of the input as the call found it. -/
theorem max_array (c : Dev nD) : (dat0 V c).arrAt 2 cfg0.N = pooledMax (V c main_arg0) :=
  (dat0 V c).arrAt_eq_of_cover 2 (pooledMax (V c main_arg0)) (max_flushed V c) fun i => by
    have hi0 : (i 0).val < 32 := (i 0).isLt
    have hi1 : (i 1).val < 1280 := (i 1).isLt
    have hv := closing_val (i 1).val hi1
    obtain ⟨-, -, e0, e1⟩ := out_index (closing (i 1).val hi1)
    refine ⟨closing (i 1).val hi1, (flush0_2 _).mpr (by rw [hv]; omega), ?_⟩
    rw [mem_max_blk]
    intro a
    match a with
    | ⟨0, _⟩ => show win0_2.index (closing (i 1).val hi1) (0 : Fin 2) * 32 ≤ (i 0).val ∧ (i 0).val < win0_2.index (closing (i 1).val hi1) (0 : Fin 2) * 32 + 32; omega
    | ⟨1, _⟩ => show win0_2.index (closing (i 1).val hi1) (1 : Fin 2) * 128 ≤ (i 1).val ∧ (i 1).val < win0_2.index (closing (i 1).val hi1) (1 : Fin 2) * 128 + 128; omega

end Cert.KernelIdeal.Pool

end
-- ==== Proof.ScaledSpec.lean ====
/-
  The result of the scaling call, index by index on the extended reals: an input `x : [32, 2048, 1280]` times a
  gate table `a : [32, 1280]` repeated along the sequence axis,  scaledBy x a (b, l, c) = x (b, l, c) · a (b, c).
-/
import Idealize.ShloMosaic.Lib.ValueIdx
import Idealize.ShloMosaic.PureOps.Ideal

noncomputable section

namespace Cert.Pool

open Idealize.ShloMosaic Idealize.ShloMosaic.ValueIdx

/-- `x (b, l, c) · a (b, c)`. -/
def scaledBy (X : (⟨3, ![32, 2048, 1280]⟩ : Shape).Idx → EReal) (A : (⟨2, ![32, 1280]⟩ : Shape).Idx → EReal) :
    (⟨3, ![32, 2048, 1280]⟩ : Shape).Idx → EReal :=
  fun i => X i * A (ix2 (⟨(i 0).val, (i 0).isLt⟩ : Fin 32) (⟨(i 2).val, (i 2).isLt⟩ : Fin 1280))

end Cert.Pool

end
-- ==== Proof.Scaled.lean ====
/-
  The result array of the scaling call. Its grid is again 10 channel tiles by 8 sequence blocks; point `t` reads
  rows `256·(t % 8) …`, channels `128·(t / 8) …` of `x` and channels `128·(t / 8) …` of the gate table, and writes the same
  rows and channels of the result, every point writing back. So what point `t` writes is block `t` of
  `x (b, l, c) · a (b, c)`, and the 80 blocks cover the array: row `l` and channel `c` lie in the block of point
  `8·(c / 128) + l / 256`.
-/
import proofs.«179766_j36696200577250_2_alg».proof.Proof.Gen.KernelIdeal.Frame
import proofs.«179766_j36696200577250_2_alg».proof.Proof.Pieces
import proofs.«179766_j36696200577250_2_alg».proof.Proof.Steps
import proofs.«179766_j36696200577250_2_alg».proof.Proof.ScaledSpec

set_option maxRecDepth 16384

noncomputable section

namespace Cert.KernelIdeal.Pool

open Cert.KernelIdeal Cert.KernelIdeal.Gen Cert.Pool
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three windows' block indices at point `t`. -/
theorem scale_index : ∀ t : Fin cfg1.N,
    win1_0.index t (0 : Fin 3) = 0 ∧ win1_0.index t (1 : Fin 3) = t.val % 8 ∧ win1_0.index t (2 : Fin 3) = t.val / 8
    ∧ win1_1.index t (0 : Fin 2) = 0 ∧ win1_1.index t (1 : Fin 2) = t.val / 8
    ∧ win1_2.index t (0 : Fin 3) = 0 ∧ win1_2.index t (1 : Fin 3) = t.val % 8 ∧ win1_2.index t (2 : Fin 3) = t.val / 8 :=
  (by decide +kernel : ∀ t : Fin grid1.N,
    win1_0.index t (0 : Fin 3) = 0 ∧ win1_0.index t (1 : Fin 3) = t.val % 8 ∧ win1_0.index t (2 : Fin 3) = t.val / 8
    ∧ win1_1.index t (0 : Fin 2) = 0 ∧ win1_1.index t (1 : Fin 2) = t.val / 8
    ∧ win1_2.index t (0 : Fin 3) = 0 ∧ win1_2.index t (1 : Fin 3) = t.val % 8 ∧ win1_2.index t (2 : Fin 3) = t.val / 8)

/-- The scaling body's product at any index of the block. -/
theorem scale_entry (x : FVec Ideal S32x256x128 .f32) (a : FVec Ideal S32x128 .f32) (y : S32x256x128.Idx) :
    k1_pay1 (F := Ideal) x a y
      = x y * a (ix2 (⟨(y 0).val, (y 0).isLt⟩ : Fin 32) (⟨(y 2).val, (y 2).isLt⟩ : Fin 128)) := by
  obtain ⟨b, k, q, rfl⟩ : ∃ (b : Fin 32) (k : Fin 256) (q : Fin 128), y = ix3 b k q := ⟨y 0, y 1, y 2, eq_ix3 y⟩
  exact scale_at x a b k q

/-- WHAT POINT `t` WRITES BACK is block `t` of `x · a` over the arrays as the call finds them. -/
theorem scaled_flushed (c : Dev nD) (t : Fin cfg1.N) (hf : (cfg1.win 2).flush t = true) :
    (dat1 V c).flushed 2 t
      = ((cfg1.win 2).blk t).view.read (Elt Ideal) (scaledBy (V c main_arg0) (V c main_v27)) := by
  have hN : t.val < 80 := lt_of_lt_of_eq t.isLt (show cfg1.N = 80 from N_1)
  obtain ⟨a0, a1, a2, g0, g1, o0, o1, o2⟩ := scale_index t
  show (cfg1.win 2).cut (grid1.coords t) ((dat1 V c).after 2 t) = _
  rw [after1_2, scaled_block]
  funext y
  have hy0 : (y 0).val < 32 := (y 0).isLt
  have hy1 : (y 1).val < 256 := (y 1).isLt
  have hy2 : (y 2).val < 128 := (y 2).isLt
  show k1_pay1 (F := Ideal) (iblk1 V c 0 t) (iblk1 V c 1 t) y
      = scaledBy (V c main_arg0) (V c main_v27) (((cfg1.win 2).blk t).view.emb y)
  refine (scale_entry (iblk1 V c 0 t) (iblk1 V c 1 t) y).trans ?_
  unfold iblk1 scaledBy
  rw [View.read_apply, View.read_apply]
  have hx : ((cfg1.win 0).blk t).view.emb y = ((cfg1.win 2).blk t).view.emb y := by
    funext a; apply Fin.ext
    match a with
    | ⟨0, _⟩ => show win1_0.index t (0 : Fin 3) * 32 + 1 * (y 0).val = win1_2.index t (0 : Fin 3) * 32 + 1 * (y 0).val; omega
    | ⟨1, _⟩ => show win1_0.index t (1 : Fin 3) * 256 + 1 * (y 1).val = win1_2.index t (1 : Fin 3) * 256 + 1 * (y 1).val; omega
    | ⟨2, _⟩ => show win1_0.index t (2 : Fin 3) * 128 + 1 * (y 2).val = win1_2.index t (2 : Fin 3) * 128 + 1 * (y 2).val; omega
  have hg : ((cfg1.win 1).blk t).view.emb (ix2 (⟨(y 0).val, hy0⟩ : Fin 32) (⟨(y 2).val, hy2⟩ : Fin 128))
      = ix2 (⟨((((cfg1.win 2).blk t).view.emb y) 0).val, ((((cfg1.win 2).blk t).view.emb y) 0).isLt⟩ : Fin 32)
          (⟨((((cfg1.win 2).blk t).view.emb y) 2).val, ((((cfg1.win 2).blk t).view.emb y) 2).isLt⟩ : Fin 1280) := by
    funext a; apply Fin.ext
    match a with
    | ⟨0, _⟩ => show win1_1.index t (0 : Fin 2) * 32 + 1 * (y 0).val = win1_2.index t (0 : Fin 3) * 32 + 1 * (y 0).val; omega
    | ⟨1, _⟩ => show win1_1.index t (1 : Fin 2) * 128 + 1 * (y 2).val = win1_2.index t (2 : Fin 3) * 128 + 1 * (y 2).val; omega
  rw [hx, hg]
  rfl

/-- An index of the result array is in point `t`'s block iff each coordinate is in the block's range on its axis. -/
theorem mem_scaled_blk (t : Fin cfg1.N) (i : S32x2048x1280.Idx) :
    i ∈ ((cfg1.win 2).blk t).view.set ↔ ∀ a : Fin 3, win1_2.index t a * S32x256x128.size a ≤ (i a).val
      ∧ (i a).val < win1_2.index t a * S32x256x128.size a + S32x256x128.size a := by
  show i ∈ ((View.whole main_v28).slice (win1_2.rect t)).set ↔ _
  rw [View.set_slice_whole, Rect.mem_set_unit]
  exact Iff.rfl

/-- The point whose block holds row `l` and channel `ch`. -/
def covering (l ch : ℕ) (hl : l < 2048) (h : ch < 1280) : Fin cfg1.N :=
  ⟨8 * (ch / 128) + l / 256, by rw [show cfg1.N = 80 from N_1]; omega⟩

theorem covering_val (l ch : ℕ) (hl : l < 2048) (h : ch < 1280) : (covering l ch hl h).val = 8 * (ch / 128) + l / 256 := rfl

/-- THE RESULT ARRAY after the call: `x · a` of the arrays as the call found them. -/
theorem scaled_array (c : Dev nD) : (dat1 V c).arrAt 2 cfg1.N = scaledBy (V c main_arg0) (V c main_v27) :=
  (dat1 V c).arrAt_eq_of_cover 2 (scaledBy (V c main_arg0) (V c main_v27)) (scaled_flushed V c) fun i => by
    have hi0 : (i 0).val < 32 := (i 0).isLt
    have hi1 : (i 1).val < 2048 := (i 1).isLt
    have hi2 : (i 2).val < 1280 := (i 2).isLt
    have hv := covering_val (i 1).val (i 2).val hi1 hi2
    obtain ⟨-, -, -, -, -, o0, o1, o2⟩ := scale_index (covering (i 1).val (i 2).val hi1 hi2)
    refine ⟨covering (i 1).val (i 2).val hi1 hi2, flush1_2 _, ?_⟩
    rw [mem_scaled_blk]
    intro a
    match a with
    | ⟨0, _⟩ => show win1_2.index (covering (i 1).val (i 2).val hi1 hi2) (0 : Fin 3) * 32 ≤ (i 0).val ∧ (i 0).val < win1_2.index (covering (i 1).val (i 2).val hi1 hi2) (0 : Fin 3) * 32 + 32; omega
    | ⟨1, _⟩ => show win1_2.index (covering (i 1).val (i 2).val hi1 hi2) (1 : Fin 3) * 256 ≤ (i 1).val ∧ (i 1).val < win1_2.index (covering (i 1).val (i 2).val hi1 hi2) (1 : Fin 3) * 256 + 256; omega
    | ⟨2, _⟩ => show win1_2.index (covering (i 1).val (i 2).val hi1 hi2) (2 : Fin 3) * 128 ≤ (i 2).val ∧ (i 2).val < win1_2.index (covering (i 1).val (i 2).val hi1 hi2) (2 : Fin 3) * 128 + 128; omega

end Cert.KernelIdeal.Pool

end
-- ==== Proof.Gate.lean ====
/-
  The part the two programs share, and the reference's result in terms of it.
  Both programs turn the pooled sum `s` and the pooled maximum `mx` (tables [32, 1280]) into the gate table by the
  same host operations: with  mlp v = relu (v · w1 + b1) · w2 + b2,
      gate s mx = 1 / (1 + exp (-(mlp (s / 2048) + mlp mx))),
  and the result is `x` times the gate spread over the sequence axis. The gate is ONE definition, applied on both
  sides to equal tables and never opened: whatever the extended reals make of its division, exponential and matrix
  products, both programs make the same of them. What is proved here is only the layout and the two reductions:
  the spread table read at (b, l, c) is the table at (b, c), the host's sum over the sequence axis from `0` is the
  pooled sum, and its maximum from `-∞` the pooled maximum.
-/
import proofs.«179766_j36696200577250_2_alg».proof.Proof.Gen.ReferenceIdeal
import proofs.«179766_j36696200577250_2_alg».proof.Proof.Pooled
import proofs.«179766_j36696200577250_2_alg».proof.Proof.ScaledSpec
import Idealize.ShloMosaic.Lib.Pipeline.Value
import Idealize.ShloMosaic.Lib.ValueIdx
import Idealize.ShloMosaic.Lib.IdealHost
import Idealize.ShloMosaic.PureOps.Ideal.Laws

noncomputable section

namespace Cert.Pool

open Cert.ReferenceIdeal Cert.ReferenceIdeal.Gen
open Idealize.ShloMosaic Idealize.ShloMosaic.ValueIdx

variable {F : FTy → Type} [FloatOps F]

/-- The shared two-layer perceptron on a [32, 1280] table: `relu (v · w1 + b1) · w2 + b2`. -/
def mlp (v : Vec F S32x1280 .f32) (w1 : Vec F S1280x160 .f32) (b1 : Vec F S160 .f32) (w2 : Vec F S160x1280 .f32)
    (b2 : Vec F S1280 .f32) : Vec F S32x1280 .f32 :=
  addf (Host.dotGeneral dot_S32x160_S160x1280_S32x1280_1_0_0_1_n_n none (maximumf (addf (Host.dotGeneral dot_S32x1280_S1280x160_S32x160_1_0_0_1_n_n none v w1) (broadcastInDim S32x160 ![0, 1] bcast_S1x160_S32x160_0_1 (broadcastInDim S1x160 ![1] bcast_S160_S1x160_1 b1))) (broadcastInDim S32x160 ![] bcast_S_S32x160 (constant S_ .f32 0x00000000#32))) w2) (broadcastInDim S32x1280 ![0, 1] bcast_S1x1280_S32x1280_0_1 (broadcastInDim S1x1280 ![1] bcast_S1280_S1x1280_1 b2))

/-- The gate table from the pooled sum and the pooled maximum: `1 / (1 + exp (-(mlp (s / 2048) + mlp mx)))`. -/
def gate (s mx : Vec F S32x1280 .f32) (w1 : Vec F S1280x160 .f32) (b1 : Vec F S160 .f32) (w2 : Vec F S160x1280 .f32)
    (b2 : Vec F S1280 .f32) : Vec F S32x1280 .f32 :=
  Host.divf (broadcastInDim S32x1280 ![] bcast_S_S32x1280 (constant S_ .f32 0x3F800000#32)) (addf (broadcastInDim S32x1280 ![] bcast_S_S32x1280 (constant S_ .f32 0x3F800000#32)) (Host.exp (Host.negf (addf (mlp (Host.divf s (broadcastInDim S32x1280 ![] bcast_S_S32x1280 (constant S_ .f32 0x45000000#32))) w1 b1 w2 b2) (mlp mx w1 b1 w2 b2)))))

/-- `x` times a [32, 1280] table spread over the sequence axis, as the reference spells it. -/
def spread (x : Vec F S32x2048x1280 .f32) (a : Vec F S32x1280 .f32) : Vec F S32x2048x1280 .f32 :=
  mulf x (broadcastInDim S32x2048x1280 ![0, 1, 2] bcast_S32x1x1280_S32x2048x1280_0_1_2 (broadcastInDim S32x1x1280 ![0, 2] bcast_S32x1280_S32x1x1280_0_2 a))

/-- The reference's result as a function of its arguments. -/
def refResult (x : Vec F S32x2048x1280 .f32) (w1 : Vec F S1280x160 .f32) (b1 : Vec F S160 .f32) (w2 : Vec F S160x1280 .f32)
    (b2 : Vec F S1280 .f32) : Vec F S32x2048x1280 .f32 :=
  spread x (gate (Host.reduceAdd x (constant S_ .f32 0x00000000#32) reducesTo_S32x2048x1280_S32x1280_d1 h_S_)
    (Host.reduce FloatOps.maximumf x (constant S_ .f32 0xFF800000#32) reducesTo_S32x2048x1280_S32x1280_d1 h_S_) w1 b1 w2 b2)

/-- The spread table at (b, l, c) is the table at (b, c): the product is `x (b, l, c) · a (b, c)`. -/
theorem spread_eq (x : Vec Ideal S32x2048x1280 .f32) (a : Vec Ideal S32x1280 .f32) : spread (F := Ideal) x a = scaledBy x a := by
  funext i
  unfold spread scaledBy
  refine (mulf_apply _ _ i).trans (congrArg (x i * ·) ?_)
  refine (broadcastInDim_apply _ bcast_S32x1x1280_S32x2048x1280_0_1_2 _ i
    (ix3 (⟨(i 0).val, (i 0).isLt⟩ : Fin 32) (0 : Fin 1) (⟨(i 2).val, (i 2).isLt⟩ : Fin 1280)) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (1280 : Nat) = 1 then 0 else (i 2).val; rw [if_neg (by decide)])).trans ?_
  exact broadcastInDim_apply _ bcast_S32x1280_S32x1x1280_0_2 a _
    (ix2 (⟨(i 0).val, (i 0).isLt⟩ : Fin 32) (⟨(i 2).val, (i 2).isLt⟩ : Fin 1280)) (fun a => match a with
    | ⟨0, _⟩ => by show (i 0).val = if (32 : Nat) = 1 then 0 else (i 0).val; rw [if_neg (by decide)]
    | ⟨1, _⟩ => by show (i 2).val = if (1280 : Nat) = 1 then 0 else (i 2).val; rw [if_neg (by decide)])

/-- The reduced axis's coordinate `k` inserted into (b, c) gives (b, k, c). -/
theorem lift_seq (h : S32x2048x1280.Reduces [1] S32x1280) (b : Fin 32) (c : Fin 1280) (k : Fin 2048) :
    h.lift (ix2 b c) k = ix3 b k c :=
  funext fun a => Fin.ext (by
    match a with
    | ⟨0, _⟩ => rfl
    | ⟨1, _⟩ => rfl
    | ⟨2, _⟩ => rfl)

/-- The host's sum over the sequence axis, started from the zero word, is the pooled sum. -/
theorem reduceAdd_eq (x : Vec Ideal S32x2048x1280 .f32) :
    Host.reduceAdd (F := Ideal) x (constant S_ .f32 0x00000000#32) reducesTo_S32x2048x1280_S32x1280_d1 h_S_ = pooledSum x := by
  funext j
  obtain ⟨b, c, rfl⟩ : ∃ (b : Fin 32) (c : Fin 1280), j = ix2 b c := ⟨j 0, j 1, eq_ix2 j⟩
  have hr : S32x2048x1280.Reduces [1] S32x1280 := by decide
  simp only [Host.reduceAdd, Ideal.hostReduceAdd_def]
  refine (Ideal.hostReduceAdd_single reducesTo_S32x2048x1280_S32x1280_d1 hr x _ (ix2 b c)).trans ?_
  show Ideal.ofBits .f32 0x00000000#32 + _ = _
  rw [Ideal.ofBits_zero_f32, zero_add]
  exact Finset.sum_congr rfl fun k _ => congrArg x (lift_seq hr b c k)

/-- The host's maximum over the sequence axis, started from the `-∞` word, is the pooled maximum. -/
theorem reduceMax_eq (x : Vec Ideal S32x2048x1280 .f32) :
    Host.reduce (FloatOps.maximumf (F := Ideal)) x (constant S_ .f32 0xFF800000#32) reducesTo_S32x2048x1280_S32x1280_d1 h_S_
      = pooledMax x := by
  funext j
  obtain ⟨b, c, rfl⟩ : ∃ (b : Fin 32) (c : Fin 1280), j = ix2 b c := ⟨j 0, j 1, eq_ix2 j⟩
  have hr : S32x2048x1280.Reduces [1] S32x1280 := by decide
  refine (Host.reduce_eq_fold_single (FloatOps.maximumf (F := Ideal)) x _ reducesTo_S32x2048x1280_S32x1280_d1 hr h_S_ (ix2 b c)).trans ?_
  have hb : (constant (F := Ideal) S_ .f32 0xFF800000#32) (Shape.Idx.first h_S_) = (⊥ : EReal) := by
    show Ideal.ofBits .f32 0xFF800000#32 = (⊥ : EReal)
    simp [Ideal.ofBits, Ideal.ieee]
  refine (congrArg (fun z => (Finset.univ : Finset (Fin 2048)).fold max z (x ∘ hr.lift (ix2 b c))) hb).trans ?_
  show (Finset.univ : Finset (Fin 2048)).sup (x ∘ hr.lift (ix2 b c)) = _
  exact congrArg (Finset.univ : Finset (Fin 2048)).sup (funext fun k => congrArg x (lift_seq hr b c k))

/-- The reference's result at `Ideal`: `x` scaled by the gate of its pooled sum and pooled maximum. -/
theorem refResult_eq (x : Vec Ideal S32x2048x1280 .f32) (w1 : Vec Ideal S1280x160 .f32) (b1 : Vec Ideal S160 .f32)
    (w2 : Vec Ideal S160x1280 .f32) (b2 : Vec Ideal S1280 .f32) :
    refResult (F := Ideal) x w1 b1 w2 b2 = scaledBy x (gate (pooledSum x) (pooledMax x) w1 b1 w2 b2) := by
  unfold refResult
  rw [reduceAdd_eq, reduceMax_eq]
  exact spread_eq x _

end Cert.Pool

end
-- ==== Proof.HostGate.lean ====
/-
  Between the two calls: the host operations that turn the pooled arrays into the gate table.
  At the scaling call's entry the input array is still what was launched (nothing between writes it), and the gate
  table `main_v27` is the shared gate function of the pooling call's two result arrays and of the four weight
  arguments as launched — the thirty-one host operations composed, read back one by one.
-/
import proofs.«179766_j36696200577250_2_alg».proof.Proof.Gen.KernelIdeal.Frame
import proofs.«179766_j36696200577250_2_alg».proof.Proof.Gate
import Idealize.ShloMosaic.Lib.StableHlo.Run

set_option maxRecDepth 16384

noncomputable section

namespace Cert.KernelIdeal.Pool

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The two programs print one record for each of the two matrix products. -/
theorem dot_in_eq : Cert.KernelIdeal.dot_S32x1280_S1280x160_S32x160_1_0_0_1_n_n
    = Cert.ReferenceIdeal.dot_S32x1280_S1280x160_S32x160_1_0_0_1_n_n := rfl
theorem dot_out_eq : Cert.KernelIdeal.dot_S32x160_S160x1280_S32x1280_1_0_0_1_n_n
    = Cert.ReferenceIdeal.dot_S32x160_S160x1280_S32x1280_1_0_0_1_n_n := rfl

/-- The input array at the scaling call's entry is the launched one. -/
theorem input_kept (c : Dev nD) : V6 m ρ c main_arg0 = m ((c : Thread nD τ).loc main_arg0) := by
  show StableHlo.after hostOps1_4 (StableHlo.after hostOps1_3 (StableHlo.after hostOps1_2 (StableHlo.after hostOps1_1
    (StableHlo.after hostOps1 (W1 m ρ c))))) (Proc.devRef .tc main_arg0) = _
  after_results
  exact (W1_arr m ρ c 0).trans (((dat0 (V0 m ρ) c).arrAt_in 0 rfl _).trans (A_eq0 (V0 m ρ) c 0))

set_option maxHeartbeats 2000000 in
/-- The gate table at the scaling call's entry: the shared gate of the pooling call's results and the weights. -/
theorem gate_table (c : Dev nD) :
    V6 m ρ c main_v27 = Cert.Pool.gate (V1 m ρ c main_v0_0) (V1 m ρ c main_v0_1)
      (m ((c : Thread nD τ).loc main_arg1)) (m ((c : Thread nD τ).loc main_arg2))
      (m ((c : Thread nD τ).loc main_arg3)) (m ((c : Thread nD τ).loc main_arg4)) := by
  show StableHlo.after hostOps1_4 (StableHlo.after hostOps1_3 (StableHlo.after hostOps1_2 (StableHlo.after hostOps1_1
    (StableHlo.after hostOps1 (W1 m ρ c))))) (Proc.devRef .tc main_v27) = _
  after_results_simp
  rw [W1_of_ne m ρ c main_arg1 (by decide), W1_of_ne m ρ c main_arg2 (by decide), W1_of_ne m ρ c main_arg3 (by decide),
    W1_of_ne m ρ c main_arg4 (by decide)]
  rfl

end Cert.KernelIdeal.Pool

end
-- ==== Proof.KernelValue.lean ====
/-
  The idealized kernel's result as one function of its launched arguments, on the extended reals:
      result (b, l, c) = x (b, l, c) · gate (pooledSum x) (pooledMax x) (b, c).
  The chain: the result array is the scaling call's output, `x · a` of the arrays that call found; the array `x` it
  found is the launched one and the table `a` is the shared gate of the pooling call's two results; and those are
  the pooled sum and the pooled maximum of the launched `x`.
-/
import proofs.«179766_j36696200577250_2_alg».proof.Proof.MainRun
import proofs.«179766_j36696200577250_2_alg».proof.Proof.PooledArrays
import proofs.«179766_j36696200577250_2_alg».proof.Proof.Scaled
import proofs.«179766_j36696200577250_2_alg».proof.Proof.HostGate

set_option maxRecDepth 16384

noncomputable section

namespace Cert.KernelIdeal.Pool

open Cert.KernelIdeal Cert.KernelIdeal.Gen Cert.Pool
open Idealize.ShloMosaic Idealize.ShloMosaic.TcCoe Idealize.SL.Sem

variable (m : (ℓ : Loc nD τ sig) → Buf (Elt Ideal) ℓ) (ρ : Dev nD → PrngReg)

/-- The result array's contents, from the launched arguments. -/
def result (c : Dev nD) : Buf (Elt Ideal) ((c : Thread nD τ).loc main_v28) :=
  scaledBy (m ((c : Thread nD τ).loc main_arg0))
    (gate (pooledSum (m ((c : Thread nD τ).loc main_arg0))) (pooledMax (m ((c : Thread nD τ).loc main_arg0)))
      (m ((c : Thread nD τ).loc main_arg1)) (m ((c : Thread nD τ).loc main_arg2))
      (m ((c : Thread nD τ).loc main_arg3)) (m ((c : Thread nD τ).loc main_arg4)))

/-- The last boundary's contents of the result array are that function. -/
theorem result_value (c : Dev nD) : V7 m ρ c main_v28 = result m c := by
  have hx : V6 m ρ c main_arg0 = m ((c : Thread nD τ).loc main_arg0) := input_kept m ρ c
  have hs : V1 m ρ c main_v0_0 = pooledSum (m ((c : Thread nD τ).loc main_arg0)) :=
    (W1_arr m ρ c 1).trans (sum_array (V0 m ρ) c)
  have hm : V1 m ρ c main_v0_1 = pooledMax (m ((c : Thread nD τ).loc main_arg0)) :=
    (W1_arr m ρ c 2).trans (max_array (V0 m ρ) c)
  refine (W7_arr m ρ c 2).trans ?_
  refine (scaled_array (V6 m ρ) c).trans ?_
  rw [hx, gate_table m ρ c, hs, hm]
  rfl

/-- The run, read: the result array at that function of the arguments, the arguments unchanged. -/
theorem run : θ_run defs (onTc (τ := τ) (main (F := Ideal))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_main m ρ)

end Cert.KernelIdeal.Pool

end
-- ==== Proof.lean ====
/-
  Channel attention by pooling, as two TPU calls against one jnp expression, equal on the extended reals.

  The reference computes, for x : [32, 2048, 1280] and a two-layer perceptron's weights,
      out (b, l, c) = x (b, l, c) · gate (Σ_l x (b, l, c), max_l x (b, l, c)) (b, c),
      gate (s, mx) = 1 / (1 + exp (-(mlp (s / 2048) + mlp mx))),   mlp v = relu (v · w1 + b1) · w2 + b2.
  The kernel streams x twice. Its first call walks 10 channel tiles by 8 sequence blocks and keeps, per tile, a
  running sum and a running maximum over the 8 blocks of 256 rows, started at 0 and -∞ and written back after the
  eighth block; host operations — the reference's own, operation for operation — make the gate table from the two
  pooled arrays; its second call multiplies every [32, 256, 128] block of x by its block of the gate table.

  The mathematics: a sum, and a maximum, of 2048 extended reals taken as 8 blocks of 256 folded into a running value
  is the sum, the maximum, of all of them (addition on the extended reals is commutative and associative and max is
  the lattice join, at ±∞ as well — nothing has to be finite, and the precondition is never opened); the gate is
  one function applied on both sides to equal tables; and a block of the product is the product of the blocks.
  Modules: BlockLaws / Pooled / ScaledSpec (the laws and the index-by-index specification), Pieces / Steps / Running /
  PooledArrays (the pooling call), Scaled (the scaling call), Gate / HostGate (the shared host operations),
  MainRun / KernelValue (the kernel's run with its result read). The idealization rewrote nothing, so `preserves`
  is trivial; the two kernel frames are the generated ones and the reference's frame is its run with the result dropped.
-/
import proofs.«179766_j36696200577250_2_alg».proof.Defs
import proofs.«179766_j36696200577250_2_alg».proof.Proof.Gen.Kernel
import proofs.«179766_j36696200577250_2_alg».proof.Proof.Gen.Kernel.Skeleton
import proofs.«179766_j36696200577250_2_alg».proof.Proof.Gen.Kernel.Launch
import proofs.«179766_j36696200577250_2_alg».proof.Proof.Gen.Kernel.Points
import proofs.«179766_j36696200577250_2_alg».proof.Proof.Gen.Kernel.Frame
import proofs.«179766_j36696200577250_2_alg».proof.Proof.Gen.KernelIdeal
import proofs.«179766_j36696200577250_2_alg».proof.Proof.Gen.KernelIdeal.Skeleton
import proofs.«179766_j36696200577250_2_alg».proof.Proof.Gen.KernelIdeal.Launch
import proofs.«179766_j36696200577250_2_alg».proof.Proof.Gen.KernelIdeal.Points
import proofs.«179766_j36696200577250_2_alg».proof.Proof.Gen.KernelIdeal.Frame
import proofs.«179766_j36696200577250_2_alg».proof.Proof.Gen.ReferenceIdeal
import proofs.«179766_j36696200577250_2_alg».proof.Proof.Gen.ReferenceIdeal.Run
import proofs.«179766_j36696200577250_2_alg».proof.Proof.Gen.ReferenceIdeal.Read
import proofs.«179766_j36696200577250_2_alg».proof.Proof.Gen.Pre_finite_inputs
import proofs.«179766_j36696200577250_2_alg».proof.Proof.KernelValue
import proofs.«179766_j36696200577250_2_alg».proof.Proof.Gate
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At `Ideal` the kernel's result array ends at `x · gate (pooledSum x) (pooledMax x)` of its arguments, and the
    reference's at its composed term of arguments that agree — the same function (`refResult_eq`). -/
theorem algebraic : Cert.algebraic_KernelIdeal_ReferenceIdeal := by
  intro m ρ m' ρ' _ hagree
  refine ⟨fun c => Cert.KernelIdeal.Pool.result m c, Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.Pool.refResult_eq _ _ _ _ _

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
